-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S65536x2048 : Shape := ⟨2, ![65536, 2048]⟩
abbrev S65536 : Shape := ⟨1, ![65536]⟩
abbrev S2048x65536 : Shape := ⟨2, ![2048, 65536]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_
  bcast_S_S65536 : S_.BroadcastsInDim S65536 (![] : Fin 0 → Fin S65536.rank)
  reducesTo_S65536_S_d0 : S65536.ReducesTo [0] S_
  bcast_S_S2048x65536 : S_.BroadcastsInDim S2048x65536 (![] : Fin 0 → Fin S2048x65536.rank)
  reducesTo_S2048x65536_S_d0_1 : S2048x65536.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S65536 .f32) (main_v13 : IVec S_ 1) (main_v16 : IVec S2048x65536 1) : IVec S_ 1 :=
  let main_c_5 : IVec S_ 1 := constantI S_ 1 1#1
  let main_v17 : IVec S_ 1 := (fun x v => Host.reduce IntOp.andi x v reducesTo_S2048x65536_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S65536 .f32 := Host.absf main_arg5
  let main_cst_8 : FVec F S_ .f32 := constant S_ .f32 0x7F800000#32
  let main_v25 : FVec F S65536 .f32 := broadcastInDim S65536 ![] bcast_S_S65536 main_cst_8
  let main_v26 : IVec S65536 1 := cmpf .olt main_v24 main_v25
  let main_c_9 : IVec S_ 1 := constantI S_ 1 1#1
  let main_v27 : IVec S_ 1 := (fun x v => Host.reduce IntOp.andi x v reducesTo_S65536_S_d0 h_S_) main_v26 main_c_9
  let main_v28 : IVec S_ 1 := andi main_v23 main_v27
  main_v28

def fn {F : FTy → Type} [FloatOps F] (main_arg0 : FVec F S512x2048 .f32) (main_arg1 : FVec F S65536x2048 .f32) (main_arg2 : FVec F S65536 .f32) (main_arg3 : FVec F S2048x65536 .f32) (main_arg4 : FVec F S2048 .f32) (main_arg5 : FVec F S65536 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S65536x2048 .f32 := Host.absf main_arg1
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S2048x65536 .f32 := Host.absf main_arg3
  let main_cst_4 : FVec F S_ .f32 := constant S_ .f32 0x7F800000#32
  let main_v15 : FVec F S2048x65536 .f32 := broadcastInDim S2048x65536 ![] bcast_S_S2048x65536 main_cst_4
  let main_v16 : IVec S2048x65536 1 := cmpf .olt main_v14 main_v15
  fn_part1 (F := F) main_arg4 main_arg5 main_v13 main_v16
-- ==== Kernel.lean ====
abbrev S512x2048 : Shape := ⟨2, ![512, 2048]⟩
abbrev S65536x2048 : Shape := ⟨2, ![65536, 2048]⟩
abbrev S65536 : Shape := ⟨1, ![65536]⟩
abbrev S2048x65536 : Shape := ⟨2, ![2048, 65536]⟩
abbrev S2048 : Shape := ⟨1, ![2048]⟩
abbrev S1x2048 : Shape := ⟨2, ![1, 2048]⟩
abbrev S1x65536 : Shape := ⟨2, ![1, 65536]⟩
abbrev S512x65536 : Shape := ⟨2, ![512, 65536]⟩
abbrev S2x512x2048 : Shape := ⟨3, ![2, 512, 2048]⟩
abbrev S1024x2048 : Shape := ⟨2, ![1024, 2048]⟩
abbrev S1x1024 : Shape := ⟨2, ![1, 1024]⟩
abbrev S2048x1024 : Shape := ⟨2, ![2048, 1024]⟩
abbrev S512x1024 : Shape := ⟨2, ![512, 1024]⟩
abbrev S1x512x2048 : Shape := ⟨3, ![1, 512, 2048]⟩
abbrev S_ : Shape := ⟨0, ![]⟩

abbrev nBuf : Space → Nat
  | .hbm => 35
  | .vmem => 12
  | .smem => 0
  | _ => 0

abbrev bufTy : (tb : Table) → Fin (tcTables nBuf tb) → BufTy
  | .hbm, ⟨0, _⟩ => ⟨S512x2048, .f32⟩
  | .hbm, ⟨1, _⟩ => ⟨S65536x2048, .f32⟩
  | .hbm, ⟨2, _⟩ => ⟨S65536, .f32⟩
  | .hbm, ⟨3, _⟩ => ⟨S2048x65536, .f32⟩
  | .hbm, ⟨4, _⟩ => ⟨S2048, .f32⟩
  | .hbm, ⟨5, _⟩ => ⟨S65536, .f32⟩
  | .hbm, ⟨6, _⟩ => ⟨S1x2048, .f32⟩
  | .hbm, ⟨7, _⟩ => ⟨S512x2048, .f32⟩
  | .hbm, ⟨8, _⟩ => ⟨S512x2048, .f32⟩
  | .hbm, ⟨9, _⟩ => ⟨S1x65536, .f32⟩
  | .hbm, ⟨10, _⟩ => ⟨S1x65536, .f32⟩
  | .hbm, ⟨11, _⟩ => ⟨S512x65536, .f32⟩
  | .hbm, ⟨12, _⟩ => ⟨S2x512x2048, .f32⟩
  | .hbm, ⟨13, _⟩ => ⟨S1x512x2048, .f32⟩
  | .hbm, ⟨14, _⟩ => ⟨S512x2048, .f32⟩
  | .hbm, ⟨15, _⟩ => ⟨S1x512x2048, .f32⟩
  | .hbm, ⟨16, _⟩ => ⟨S512x2048, .f32⟩
  | .hbm, ⟨17, _⟩ => ⟨S512x2048, .f32⟩
  | .hbm, ⟨18, _⟩ => ⟨S1x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S512x2048, .f32⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

class Facts₀ : Prop where
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  shapeCasts_S65536_S1x65536 : S65536.ShapeCasts S1x65536
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  natLt_1_32 : 1 < 32
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  slices_S2x512x2048_S1x512x2048_0_0_0 : S2x512x2048.Slices ![0, 0, 0] S1x512x2048
  slices_S2x512x2048_S1x512x2048_1_0_0 : S2x512x2048.Slices ![1, 0, 0] S1x512x2048
  bcast_S_S512x2048 : S_.BroadcastsInDim S512x2048 (![] : Fin 0 → Fin S512x2048.rank)
  reducesTo_S512x2048_S2048_d0 : S512x2048.ReducesTo [0] S2048
  h_S_ : 0 < S_.numel
  bcast_S_S2048 : S_.BroadcastsInDim S2048 (![] : Fin 0 → Fin S2048.rank)
  reducesTo_S2048_S_d0 : S2048.ReducesTo [0] S_
  dot_S512x2048_S1024x2048_S512x1024_1_1_0_0_n_n_wf : DotDims.WF S512x2048 S1024x2048 S512x1024 [1] [1] [0] [0] [] []
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S65536x2048.size a
  hwx0_1 : ∀ i : grid0.Coords, EltTy.bits .f32 = 32 ∨ (Rect.block (s := S65536x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x65536.size a
  hwx0_2 : ∀ i : grid0.Coords, EltTy.bits .f32 = 32 ∨ (Rect.block (s := S1x65536) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x65536.size a
  hwx0_3 : ∀ i : grid0.Coords, EltTy.bits .f32 = 32 ∨ (Rect.block (s := S2048x65536) S2048x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x65536.size a
  hwx0_4 : ∀ i : grid0.Coords, EltTy.bits .f32 = 32 ∨ (Rect.block (s := S1x65536) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x65536.size a
  hwx0_5 : ∀ i : grid0.Coords, EltTy.bits .f32 = 32 ∨ (Rect.block (s := S512x65536) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S2x512x2048.size a
  hwx0_6 : ∀ i : grid0.Coords, EltTy.bits .f32 = 32 ∨ (Rect.block (s := S2x512x2048) S1x512x2048.size (cc0_transform_6 i) (hinb0_6 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_v2) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1x512x2048.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x2048 : Shape := ⟨2, ![512, 2048]⟩
abbrev S65536x2048 : Shape := ⟨2, ![65536, 2048]⟩
abbrev S65536 : Shape := ⟨1, ![65536]⟩
abbrev S2048x65536 : Shape := ⟨2, ![2048, 65536]⟩
abbrev S2048 : Shape := ⟨1, ![2048]⟩
abbrev S1x2048 : Shape := ⟨2, ![1, 2048]⟩
abbrev S512x65536 : Shape := ⟨2, ![512, 65536]⟩
abbrev S1x65536 : Shape := ⟨2, ![1, 65536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S65536x2048, .f32⟩
  | .hbm, ⟨2, _⟩ => ⟨S65536, .f32⟩
  | .hbm, ⟨3, _⟩ => ⟨S2048x65536, .f32⟩
  | .hbm, ⟨4, _⟩ => ⟨S2048, .f32⟩
  | .hbm, ⟨5, _⟩ => ⟨S65536, .f32⟩
  | .hbm, ⟨6, _⟩ => ⟨S1x2048, .f32⟩
  | .hbm, ⟨7, _⟩ => ⟨S512x2048, .f32⟩
  | .hbm, ⟨8, _⟩ => ⟨S512x2048, .f32⟩
  | .hbm, ⟨9, _⟩ => ⟨S2048x65536, .f32⟩
  | .hbm, ⟨10, _⟩ => ⟨S512x65536, .f32⟩
  | .hbm, ⟨11, _⟩ => ⟨S1x65536, .f32⟩
  | .hbm, ⟨12, _⟩ => ⟨S512x65536, .f32⟩
  | .hbm, ⟨13, _⟩ => ⟨S512x65536, .f32⟩
  | .hbm, ⟨14, _⟩ => ⟨S65536, .f32⟩
  | .hbm, ⟨15, _⟩ => ⟨S1x65536, .f32⟩
  | .hbm, ⟨16, _⟩ => ⟨S512x65536, .f32⟩
  | .hbm, ⟨17, _⟩ => ⟨S512x65536, .i1⟩
  | .hbm, ⟨18, _⟩ => ⟨S512x65536, .f32⟩
  | .hbm, ⟨19, _⟩ => ⟨S512x65536, .f32⟩
  | .hbm, ⟨20, _⟩ => ⟨S65536x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  transposes_S65536x2048_S2048x65536_1_0 : S65536x2048.Transposes [1, 0] S2048x65536
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  transposes_S2048x65536_S65536x2048_1_0 : S2048x65536.Transposes [1, 0] S65536x2048
  bcast_S_S512x2048 : S_.BroadcastsInDim S512x2048 (![] : Fin 0 → Fin S512x2048.rank)
  reducesTo_S512x2048_S2048_d0 : S512x2048.ReducesTo [0] S2048
  h_S_ : 0 < S_.numel
  bcast_S_S2048 : S_.BroadcastsInDim S2048 (![] : Fin 0 → Fin S2048.rank)
  reducesTo_S2048_S_d0 : S2048.ReducesTo [0] S_
  dot_S512x2048_S2048x65536_S512x65536_1_0_0_1_n_n_wf : DotDims.WF S512x2048 S2048x65536 S512x65536 [1] [0] [0] [1] [] []
  dot_S512x65536_S65536x2048_S512x2048_1_0_0_1_n_n_wf : DotDims.WF S512x65536 S65536x2048 S512x2048 [1] [0] [0] [1] [] []

variable [Facts₀]

def dot_S512x2048_S2048x65536_S512x65536_1_0_0_1_n_n : DotDims S512x2048 S2048x65536 S512x65536 where
  lhsContracting := [1]
  rhsContracting := [0]
  lhsNonContracting := [0]
  rhsNonContracting := [1]
  lhsBatch := []
  rhsBatch := []
  wf := dot_S512x2048_S2048x65536_S512x65536_1_0_0_1_n_n_wf
def dot_S512x65536_S65536x2048_S512x2048_1_0_0_1_n_n : DotDims S512x65536 S65536x2048 S512x2048 where
  lhsContracting := [1]
  rhsContracting := [0]
  lhsNonContracting := [0]
  rhsNonContracting := [1]
  lhsBatch := []
  rhsBatch := []
  wf := dot_S512x65536_S65536x2048_S512x2048_1_0_0_1_n_n_wf

class Facts : Prop extends Facts₀ where

variable [Facts]
-- ==== Proof.CaseValues.lean ====
/-
  What one run of the kernel body leaves in its two output blocks, as values of the blocks it loads.

  The body stores the firing mask of its 1024 features into the mask block, and adds its 1024 features' decode
  contribution to the accumulator block; at the first of a core's 32 steps it zeroes the accumulator block first, so
  there the contribution is added to the zero block, elsewhere to what the step before left.
-/
import proofs.«137895_j39410619908486_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open scoped BigOperators

namespace Cert.KernelIdeal.CaseValues

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A step that is not a core's first leaves the accumulator block at the loaded accumulator plus the step's
    contribution: the body's one covering store of that block. -/
theorem acc_later (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x512x2048 .f32) (harg8 : arg8.IsWhole) (hc0 : ¬cond0_0 i)
    (x0 : Vec F S512x2048 .f32) (x1 : Vec F S1024x2048 .f32) (x2 : Vec F S1x1024 .f32) (x3 : Vec F S2048x1024 .f32) (x4 : Vec F S1x1024 .f32) (xo6 : Vec F S1x512x2048 .f32) :
    out0_B_6 c i arg2 harg2 arg3 harg3 arg4 harg4 arg5 harg5 arg6 harg6 arg7 harg7 arg8 harg8 hc0 x0 x1 x2 x3 x4 xo6 = k0_pay4 x0 x1 x2 x4 x3 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo6)]
  unfold kernelRun0_B
  dsimp only
  rw [View.canon_unit_zero (S := S1x512x2048) zero3]
  simp only [View.readAt_eq_ld, harg2.read_unread, harg3.read_unread, harg4.read_unread, harg5.read_unread, harg6.read_unread,
    harg8.read_unread, View.ld_unit_zero (S := S512x2048) zero2, View.ld_unit_zero (S := S1024x2048) zero2,
    View.ld_unit_zero (S := S1x1024) zero2, View.ld_unit_zero (S := S2048x1024) zero2, View.ld_unit_zero (S := S1x512x2048) zero3]

/-- and the mask block at the step's mask. -/
theorem mask_later (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x512x2048 .f32) (harg8 : arg8.IsWhole) (hc0 : ¬cond0_0 i)
    (x0 : Vec F S512x2048 .f32) (x1 : Vec F S1024x2048 .f32) (x2 : Vec F S1x1024 .f32) (x3 : Vec F S2048x1024 .f32) (x4 : Vec F S1x1024 .f32) (xo6 : Vec F S1x512x2048 .f32) :
    out0_B_5 c i arg2 harg2 arg3 harg3 arg4 harg4 arg5 harg5 arg6 harg6 arg7 harg7 arg8 harg8 hc0 x0 x1 x2 x3 x4 xo6 = k0_pay3 x0 x1 x2 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo6)]
  unfold kernelRun0_B
  dsimp only
  rw [View.canon_unit_zero (S := S512x1024) zero2]
  simp only [View.readAt_eq_ld, harg2.read_unread, harg3.read_unread, harg4.read_unread, harg6.read_unread,
    View.ld_unit_zero (S := S512x2048) zero2, View.ld_unit_zero (S := S1024x2048) zero2, View.ld_unit_zero (S := S1x1024) zero2]

/-- A core's first step zeroes the accumulator block, reads the zero block back and leaves it plus the step's
    contribution. -/
theorem acc_first (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x512x2048 .f32) (harg8 : arg8.IsWhole) (hc0 : cond0_0 i)
    (x0 : Vec F S512x2048 .f32) (x1 : Vec F S1024x2048 .f32) (x2 : Vec F S1x1024 .f32) (x3 : Vec F S2048x1024 .f32) (x4 : Vec F S1x1024 .f32) :
    out0_A_6 c i arg2 harg2 arg3 harg3 arg4 harg4 arg5 harg5 arg6 harg6 arg7 harg7 arg8 harg8 hc0 x0 x1 x2 x3 x4 = k0_pay4 x0 x1 x2 x4 x3 (k0_pay1 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x512x2048) zero3, View.readCov_unit_zero (S := S1x512x2048) _ zero3]
  simp only [View.readAt_eq_ld, harg2.read_unread, harg3.read_unread, harg4.read_unread, harg5.read_unread, harg6.read_unread,
    View.ld_unit_zero (S := S512x2048) zero2, View.ld_unit_zero (S := S1024x2048) zero2,
    View.ld_unit_zero (S := S1x1024) zero2, View.ld_unit_zero (S := S2048x1024) zero2]

/-- and the mask block at the step's mask. -/
theorem mask_first (c : Dev nD) (i : grid0.Coords) (arg2 : Memref sig .tc .vmem S512x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S2048x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x512x2048 .f32) (harg8 : arg8.IsWhole) (hc0 : cond0_0 i)
    (x0 : Vec F S512x2048 .f32) (x1 : Vec F S1024x2048 .f32) (x2 : Vec F S1x1024 .f32) (x3 : Vec F S2048x1024 .f32) (x4 : Vec F S1x1024 .f32) :
    out0_A_5 c i arg2 harg2 arg3 harg3 arg4 harg4 arg5 harg5 arg6 harg6 arg7 harg7 arg8 harg8 hc0 x0 x1 x2 x3 x4 = k0_pay3 x0 x1 x2 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero (S := S512x1024) zero2]
  simp only [View.readAt_eq_ld, harg2.read_unread, harg3.read_unread, harg4.read_unread, harg6.read_unread,
    View.ld_unit_zero (S := S512x2048) zero2, View.ld_unit_zero (S := S1024x2048) zero2, View.ld_unit_zero (S := S1x1024) zero2]

end Cert.KernelIdeal.CaseValues

end
-- ==== Proof.Spec.lean ====
/-
  A sparse autoencoder's forward pass on the extended reals, entry by entry.

  From a batch x (512 rows of 2048 entries), encoder weights and bias, decoder weights and bias and a
  per-feature log-threshold:
    pre-activation   h(n, τ) = Σ_d (x(n, d) - b_dec(d)) · W_enc(τ, d) + b_enc(τ)
    firing mask      s(n, τ) = 1 if h(n, τ) > exp(logthr(τ)), else 0
    decode           R(n, d) = Σ_τ (h(n, τ) · s(n, τ)) · W_dec(d, τ)
  over 65536 features τ. The mask is the first result; the second is a scalar loss computed from R, x and b_dec.

  The feature axis is summed in consecutive runs: a sum over all features is the sum, over the runs, of the runs'
  sums (addition of extended reals is commutative and associative, so no finiteness is needed for this).
-/
import Idealize.ShloMosaic.PureOps.Ideal
import Idealize.ShloMosaic.PureOps.Ideal.Laws
import Idealize.ShloMosaic.Lib.ValueIdx

noncomputable section

open scoped BigOperators

namespace Cert.Sae

open Idealize.ShloMosaic Idealize.ShloMosaic.ValueIdx

/-! ## The firing indicator -/

/-- The indicator of `h > thr` as an extended real: the comparison's bit read as an unsigned number. -/
def gate (h thr : EReal) : EReal :=
  FloatOps.uitofp (F := Ideal) .f32 (FloatOps.cmpf (F := Ideal) (φ := .f32) .ogt h thr)

/-- A single bit widened with zeros to 32 bits and read as a signed number is the bit read as an unsigned number. -/
theorem bit_signed (b : BitVec 1) : (b.setWidth 32).toInt = (b.toNat : ℤ) := by
  by_cases hb : b = 1#1
  · subst hb; decide
  · obtain rfl := eq_zero_of_ne_one hb; decide

/-- The same indicator spelled with a zero-extension to 32 bits and a signed conversion. -/
theorem gate_signed (h thr : EReal) :
    FloatOps.sitofp (F := Ideal) .f32 ((FloatOps.cmpf (F := Ideal) (φ := .f32) .ogt h thr).setWidth 32) = gate h thr := by
  unfold gate
  generalize FloatOps.cmpf (F := Ideal) (φ := .f32) .ogt h thr = b
  show (((b.setWidth 32).toInt : ℝ) : EReal) = ((b.toNat : ℝ) : EReal)
  rw [bit_signed b, Int.cast_natCast]

/-! ## Sums over consecutive runs of an index range -/

section Runs

variable {M : Type*} [AddCommMonoid M] {N : ℕ}

/-- A family over `Fin N` continued by zero past `N`. -/
def ext (f : Fin N → M) (τ : ℕ) : M := if h : τ < N then f ⟨τ, h⟩ else 0

/-- The sum of `cnt` consecutive entries starting at `base`. -/
def run (f : Fin N → M) (base cnt : ℕ) : M := ∑ u ∈ Finset.range cnt, ext f (base + u)

theorem run_zero (f : Fin N → M) (base : ℕ) : run f base 0 = 0 := Finset.sum_range_zero _

/-- A run of `a + b` entries is its first `a` entries plus the next `b`. -/
theorem run_add (f : Fin N → M) (base a b : ℕ) : run f base (a + b) = run f base a + run f (base + a) b := by
  unfold run
  rw [Finset.sum_range_add]
  simp only [Nat.add_assoc]

/-- The run over the whole range is the sum over `Fin N`. -/
theorem run_full (f : Fin N → M) : run f 0 N = ∑ τ : Fin N, f τ := by
  unfold run
  rw [Finset.sum_range]
  exact Finset.sum_congr rfl fun τ _ => by
    unfold ext; rw [dif_pos (by omega)]; exact congrArg f (Fin.ext (Nat.zero_add _))

/-- A sum over a block of `len` entries inside the range is a run. -/
theorem run_block (f : Fin N → M) (base len : ℕ) (h : base + len ≤ N) :
    run f base len = ∑ u : Fin len, f ⟨base + u.val, by omega⟩ := by
  unfold run
  rw [Finset.sum_range]
  exact Finset.sum_congr rfl fun u _ => by unfold ext; rw [dif_pos (by omega)]

end Runs

/-! ## The forward pass -/

/-- A two-axis array of extended reals. -/
abbrev Arr2 (a b : ℕ) := (⟨2, ![a, b]⟩ : Shape).Idx → EReal
/-- A one-axis array of extended reals. -/
abbrev Arr1 (a : ℕ) := (⟨1, ![a]⟩ : Shape).Idx → EReal

section Forward

variable (x : Arr2 512 2048) (encw : Arr2 65536 2048) (encb : Arr1 65536) (decw : Arr2 2048 65536) (decb : Arr1 2048)
  (lt : Arr1 65536)

/-- The pre-activation of feature `τ` on row `n`. -/
def pre (n : Fin 512) (τ : Fin 65536) : EReal :=
  (∑ d : Fin 2048, (x (ix2 n d) - decb (ix1 d)) * encw (ix2 τ d)) + encb (ix1 τ)

/-- Whether feature `τ` fires on row `n`: its pre-activation exceeds the exponential of its log-threshold. -/
def fire (n : Fin 512) (τ : Fin 65536) : EReal :=
  gate (pre x encw encb decb n τ) (Ideal.exp (lt (ix1 τ)))

/-- Feature `τ`'s contribution to entry (n, d) of the decode. -/
def term (n : Fin 512) (d : Fin 2048) (τ : Fin 65536) : EReal :=
  (pre x encw encb decb n τ * fire x encw encb decb lt n τ) * decw (ix2 d τ)

/-- The firing mask as an array. -/
def maskArr : Arr2 512 65536 := fun j => fire x encw encb decb lt (j 0) (j 1)

/-- The decode (before the decoder bias) as an array. -/
def decodeArr : Arr2 512 2048 := fun j => ∑ τ : Fin 65536, term x encw encb decw decb lt (j 0) (j 1) τ

end Forward

end Cert.Sae

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.PointValues.lean ====
/-
  The arithmetic of one run of the kernel body, entry by entry on the extended reals, as functions of the blocks it
  loads: a row block xc (512 × 2048), 1024 encoder rows W (1024 × 2048) with their biases b and log-thresholds l
  (1 × 1024 each), 1024 decoder columns D (2048 × 1024) and the accumulator block A (1 × 512 × 2048).
    pre-activation  h(n, u) = Σ_d xc(n, d) · W(u, d) + b(u)
    mask            s(n, u) = indicator of h(n, u) > exp(l(u))
    accumulator     A(n, d) + Σ_u (h(n, u) · s(n, u)) · D(d, u)
  Both products contract the right operand's last axis; narrowing to bf16 is the identity on extended reals.
-/
import proofs.«137895_j39410619908486_2_alg».proof.Proof.Gen.KernelIdeal.Skeleton
import proofs.«137895_j39410619908486_2_alg».proof.Proof.Spec
import proofs.«137895_j39410619908486_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.PointValues

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open Cert.Sae

/-- The body's first product is an M×K by N×K product contracted on the last axes, -/
theorem enc_dims : dot_S512x2048_S1024x2048_S512x1024_1_1_0_0_n_n = DotDims.transposedRhs 512 2048 1024 := rfl
/-- and so is its second. -/
theorem dec_dims : dot_S512x1024_S2048x1024_S512x2048_1_1_0_0_n_n = DotDims.transposedRhs 512 1024 2048 := rfl

/-- The block the reset stores is zero everywhere. -/
theorem zero_at (n : Fin 512) (d : Fin 2048) : k0_pay1 (F := Ideal) (ix3 (0 : Fin 1) n d) = 0 := by
  unfold k0_pay1
  rw [shapeCast_ab_1ab_apply, broadcast_apply]
  exact Ideal.ofBits_zero_f32

/-- The pre-activations of the step's 1024 features. -/
theorem pre_at (v3 : Vec Ideal S512x2048 .f32) (v5 : Vec Ideal S1024x2048 .f32) (v7 : Vec Ideal S1x1024 .f32) (n : Fin 512) (u : Fin 1024) :
    k0_pay2 (F := Ideal) v3 v5 v7 (ix2 n u) = (∑ d : Fin 2048, v3 (ix2 n d) * v5 (ix2 u d)) + v7 (ix2 (0 : Fin 1) u) := by
  unfold k0_pay2
  rw [addf_apply, shapeCast_self, shapeCast_self, broadcastTo_1b_ab_apply]
  refine congrArg (· + _) ?_
  exact TransposedDot.matmul_zero_apply (some .fp32) v3 v5 n u

/-- The mask of the step's 1024 features. -/
theorem mask_at (v3 : Vec Ideal S512x2048 .f32) (v5 : Vec Ideal S1024x2048 .f32) (v7 : Vec Ideal S1x1024 .f32) (v11 : Vec Ideal S1x1024 .f32) (n : Fin 512) (u : Fin 1024) :
    k0_pay3 (F := Ideal) v3 v5 v7 v11 (ix2 n u)
      = gate (k0_pay2 (F := Ideal) v3 v5 v7 (ix2 n u)) (Ideal.exp (v11 (ix2 (0 : Fin 1) u))) := by
  unfold k0_pay3
  rw [sitofp_apply, extui_apply, cmpf_apply, broadcastTo_1b_ab_apply, shapeCast_self]
  exact gate_signed _ _

/-- The accumulator block after the step. -/
theorem acc_at (v3 : Vec Ideal S512x2048 .f32) (v5 : Vec Ideal S1024x2048 .f32) (v7 : Vec Ideal S1x1024 .f32) (v11 : Vec Ideal S1x1024 .f32) (v21 : Vec Ideal S2048x1024 .f32)
    (v24 : Vec Ideal S1x512x2048 .f32) (n : Fin 512) (d : Fin 2048) :
    k0_pay4 (F := Ideal) v3 v5 v7 v11 v21 v24 (ix3 (0 : Fin 1) n d)
      = v24 (ix3 (0 : Fin 1) n d)
        + ∑ u : Fin 1024, (k0_pay2 (F := Ideal) v3 v5 v7 (ix2 n u) * k0_pay3 (F := Ideal) v3 v5 v7 v11 (ix2 n u)) * v21 (ix2 d u) := by
  unfold k0_pay4
  rw [shapeCast_ab_1ab_apply, addf_apply, shapeCast_1ab_ab_apply]
  refine congrArg (_ + ·) ?_
  exact TransposedDot.matmul_zero_apply none _ _ n d

end Cert.KernelIdeal.PointValues

end
-- ==== Proof.Blocks.lean ====
/-
  The blocks the kernel body is run on at step t of the grid's 64 steps, entry by entry in terms of the program's
  argument arrays: step t works on features 1024·t … 1024·t + 1023.
    row block      (n, d) ↦ x(n, d) - b_dec(d)            the whole centred batch, at every step
    encoder rows   (u, d) ↦ W_enc(1024·t + u, d)
    encoder bias   (0, u) ↦ b_enc(1024·t + u)
    decoder cols   (d, u) ↦ W_dec(d, 1024·t + u)
    log-threshold  (0, u) ↦ logthr(1024·t + u)
  A block's entry sits in its array at block index × block size + the coordinate inside the block, axis by axis.
-/
import proofs.«137895_j39410619908486_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators

namespace Cert.KernelIdeal.Blocks

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open Idealize.ShloMosaic.StableHlo

variable (m : (ℓ : Loc nD τ sig) → Buf (Elt Ideal) ℓ)

/-- The program's six argument arrays on core `c`, as arrays of extended reals: the batch, the encoder weights and
    bias, the decoder weights and bias, the log-thresholds. -/
abbrev aX (c : Dev nD) : S512x2048.Idx → EReal := m ((c : Thread nD τ).loc main_arg0)
abbrev aEW (c : Dev nD) : S65536x2048.Idx → EReal := m ((c : Thread nD τ).loc main_arg1)
abbrev aEB (c : Dev nD) : S65536.Idx → EReal := m ((c : Thread nD τ).loc main_arg2)
abbrev aDW (c : Dev nD) : S2048x65536.Idx → EReal := m ((c : Thread nD τ).loc main_arg3)
abbrev aDB (c : Dev nD) : S2048.Idx → EReal := m ((c : Thread nD τ).loc main_arg4)
abbrev aLT (c : Dev nD) : S65536.Idx → EReal := m ((c : Thread nD τ).loc main_arg5)
/-- What the host prepares before the launch: the centred batch, the bias and the log-thresholds as rows. -/
abbrev centredArr (c : Dev nD) : S512x2048.Idx → EReal := V m c main_v2
abbrev biasRow (c : Dev nD) : S1x65536.Idx → EReal := V m c main_v3
abbrev thrRow (c : Dev nD) : S1x65536.Idx → EReal := V m c main_v4

/-- The windows' block indices at step `t`: the row block and the accumulator's inner axes never move, the four
    feature windows and the mask window are at block `t` of their feature axis, the accumulator at core `t / 32`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 3) = t.val / 32 ∧ win0_6.index t (1 : Fin 3) = 0 ∧ win0_6.index t (2 : Fin 3) = 0 :=
  (by decide +kernel : ∀ t : Fin grid0.N, _)

/-! ## The arrays the host prepares before the launch -/

/-- The centred batch. -/
theorem centred_eq (c : Dev nD) : centredArr m c
    = subf (F := Ideal) (φ := .f32) (aX m c) (broadcastInDim S512x2048 ![0, 1] bcast_S1x2048_S512x2048_0_1
        (broadcastInDim S1x2048 ![1] bcast_S2048_S1x2048_1 (aDB m c))) := by
  show StableHlo.after hostOps0 (fun b => m (c, b)) (Proc.devRef .tc main_v2) = _
  after_results
  all_goals rfl

/-- The encoder bias as one row. -/
theorem biasrow_eq (c : Dev nD) : biasRow m c
    = shapeCast S1x65536 (aEB m c) shapeCasts_S65536_S1x65536 := by
  show StableHlo.after hostOps0 (fun b => m (c, b)) (Proc.devRef .tc main_v3) = _
  after_results
  all_goals rfl

/-- The log-thresholds as one row. -/
theorem thrrow_eq (c : Dev nD) : thrRow m c
    = shapeCast S1x65536 (aLT m c) shapeCasts_S65536_S1x65536 := by
  show StableHlo.after hostOps0 (fun b => m (c, b)) (Proc.devRef .tc main_v4) = _
  after_results
  all_goals rfl

theorem centred_at (c : Dev nD) (n : Fin 512) (d : Fin 2048) :
    centredArr m c (ix2 n d) = (aX m c) (ix2 n d) - (aDB m c) (ix1 d) := by
  rw [centred_eq, subf_apply]
  refine congrArg (_ - ·) ?_
  refine (broadcastInDim_apply _ bcast_S1x2048_S512x2048_0_1 _ (ix2 n d) (ix2 (0 : Fin 1) d) (fun a => match a with
    | ⟨0, _⟩ => by show 0 = if (1 : Nat) = 1 then 0 else n.val; rw [if_pos rfl]
    | ⟨1, _⟩ => by show d.val = if (2048 : Nat) = 1 then 0 else d.val; rw [if_neg (by decide)])).trans ?_
  exact broadcastInDim_apply _ bcast_S2048_S1x2048_1 _ (ix2 (0 : Fin 1) d) (ix1 d) (fun a => match a with
    | ⟨0, _⟩ => by show d.val = if (2048 : Nat) = 1 then 0 else d.val; rw [if_neg (by decide)])

theorem biasrow_at (c : Dev nD) (f : Fin 65536) :
    biasRow m c (ix2 (0 : Fin 1) f) = (aEB m c) (ix1 f) := by
  rw [biasrow_eq]
  exact shapeCast_a_1a_apply _ shapeCasts_S65536_S1x65536 0 f

theorem thrrow_at (c : Dev nD) (f : Fin 65536) :
    thrRow m c (ix2 (0 : Fin 1) f) = (aLT m c) (ix1 f) := by
  rw [thrrow_eq]
  exact shapeCast_a_1a_apply _ shapeCasts_S65536_S1x65536 0 f

/-! ## The blocks at step `t` -/

/-- The row block is the centred batch. -/
theorem rows_blk (c : Dev nD) (t : Fin cfg0.N) (n : Fin 512) (d : Fin 2048) :
    (iblk m c 0 t : Vec Ideal S512x2048 .f32) (ix2 n d) = (aX m c) (ix2 n d) - (aDB m c) (ix1 d) := by
  obtain ⟨e0, e1, -⟩ := idx_facts t
  refine Eq.trans ?_ (centred_at m c n d)
  unfold iblk
  rw [View.read_apply]
  show V m c main_v2 (((cfg0.win 0).blk t).view.emb (ix2 n d)) = _
  refine congrArg (V m c main_v2) ?_
  funext a; apply Fin.ext
  match a with
  | ⟨0, _⟩ => show win0_0.index t (0 : Fin 2) * 512 + 1 * n.val = n.val; rw [e0]; omega
  | ⟨1, _⟩ => show win0_0.index t (1 : Fin 2) * 2048 + 1 * d.val = d.val; rw [e1]; omega

/-- The encoder rows of the step's features. -/
theorem enc_blk (c : Dev nD) (t : Fin cfg0.N) (u : Fin 1024) (d : Fin 2048) (hu : t.val * 1024 + u.val < 65536) :
    (iblk m c 1 t : Vec Ideal S1024x2048 .f32) (ix2 u d) = (aEW m c) (ix2 ⟨t.val * 1024 + u.val, hu⟩ d) := by
  obtain ⟨-, -, e0, e1, -⟩ := idx_facts t
  refine Eq.trans ?_ (congrFun (V_main_arg1 m c) _)
  unfold iblk
  rw [View.read_apply]
  show V m c main_arg1 (((cfg0.win 1).blk t).view.emb (ix2 u d)) = _
  refine congrArg (V m c main_arg1) ?_
  funext a; apply Fin.ext
  match a with
  | ⟨0, _⟩ => show win0_1.index t (0 : Fin 2) * 1024 + 1 * u.val = t.val * 1024 + u.val; rw [e0]; omega
  | ⟨1, _⟩ => show win0_1.index t (1 : Fin 2) * 2048 + 1 * d.val = d.val; rw [e1]; omega

/-- The encoder biases of the step's features. -/
theorem bias_blk (c : Dev nD) (t : Fin cfg0.N) (u : Fin 1024) (hu : t.val * 1024 + u.val < 65536) :
    (iblk m c 2 t : Vec Ideal S1x1024 .f32) (ix2 (0 : Fin 1) u) = (aEB m c) (ix1 ⟨t.val * 1024 + u.val, hu⟩) := by
  obtain ⟨-, -, -, -, e0, e1, -⟩ := idx_facts t
  refine Eq.trans ?_ (biasrow_at m c _)
  unfold iblk
  rw [View.read_apply]
  show V m c main_v3 (((cfg0.win 2).blk t).view.emb (ix2 (0 : Fin 1) u)) = _
  refine congrArg (V m c main_v3) ?_
  funext a; apply Fin.ext
  match a with
  | ⟨0, _⟩ => show win0_2.index t (0 : Fin 2) * 1 + 1 * 0 = 0; rw [e0]
  | ⟨1, _⟩ => show win0_2.index t (1 : Fin 2) * 1024 + 1 * u.val = t.val * 1024 + u.val; rw [e1]; omega

/-- The decoder columns of the step's features. -/
theorem dec_blk (c : Dev nD) (t : Fin cfg0.N) (d : Fin 2048) (u : Fin 1024) (hu : t.val * 1024 + u.val < 65536) :
    (iblk m c 3 t : Vec Ideal S2048x1024 .f32) (ix2 d u) = (aDW m c) (ix2 d ⟨t.val * 1024 + u.val, hu⟩) := by
  obtain ⟨-, -, -, -, -, -, e0, e1, -⟩ := idx_facts t
  refine Eq.trans ?_ (congrFun (V_main_arg3 m c) _)
  unfold iblk
  rw [View.read_apply]
  show V m c main_arg3 (((cfg0.win 3).blk t).view.emb (ix2 d u)) = _
  refine congrArg (V m c main_arg3) ?_
  funext a; apply Fin.ext
  match a with
  | ⟨0, _⟩ => show win0_3.index t (0 : Fin 2) * 2048 + 1 * d.val = d.val; rw [e0]; omega
  | ⟨1, _⟩ => show win0_3.index t (1 : Fin 2) * 1024 + 1 * u.val = t.val * 1024 + u.val; rw [e1]; omega

/-- The log-thresholds of the step's features. -/
theorem thr_blk (c : Dev nD) (t : Fin cfg0.N) (u : Fin 1024) (hu : t.val * 1024 + u.val < 65536) :
    (iblk m c 4 t : Vec Ideal S1x1024 .f32) (ix2 (0 : Fin 1) u) = (aLT m c) (ix1 ⟨t.val * 1024 + u.val, hu⟩) := by
  obtain ⟨-, -, -, -, -, -, -, -, e0, e1, -⟩ := idx_facts t
  refine Eq.trans ?_ (thrrow_at m c _)
  unfold iblk
  rw [View.read_apply]
  show V m c main_v4 (((cfg0.win 4).blk t).view.emb (ix2 (0 : Fin 1) u)) = _
  refine congrArg (V m c main_v4) ?_
  funext a; apply Fin.ext
  match a with
  | ⟨0, _⟩ => show win0_4.index t (0 : Fin 2) * 1 + 1 * 0 = 0; rw [e0]
  | ⟨1, _⟩ => show win0_4.index t (1 : Fin 2) * 1024 + 1 * u.val = t.val * 1024 + u.val; rw [e1]; omega

end Cert.KernelIdeal.Blocks

end
-- ==== Proof.Steps.lean ====
/-
  One step of the grid in terms of the program's argument arrays: at step t the body's pre-activations, mask and
  decode contribution are those of features 1024·t … 1024·t + 1023, so the accumulator block gains the run of 1024
  consecutive decode terms starting at feature 1024·t.
-/
import proofs.«137895_j39410619908486_2_alg».proof.Proof.PointValues
import proofs.«137895_j39410619908486_2_alg».proof.Proof.Blocks

set_option maxRecDepth 16384

noncomputable section

open scoped BigOperators

namespace Cert.KernelIdeal.Steps

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open Cert.Sae Cert.KernelIdeal.PointValues Cert.KernelIdeal.Blocks

variable (m : (ℓ : Loc nD τ sig) → Buf (Elt Ideal) ℓ)

/-- The features of step `t` are features of the model. -/
theorem feat_lt (t : Fin cfg0.N) (u : Fin 1024) : t.val * 1024 + u.val < 65536 := by
  have ht : t.val < 64 := lt_of_lt_of_eq t.isLt (show cfg0.N = 64 from N_0)
  have hu := u.isLt
  omega

/-- The step's pre-activations. -/
theorem step_pre (c : Dev nD) (t : Fin cfg0.N) (n : Fin 512) (u : Fin 1024) :
    k0_pay2 (F := Ideal) (iblk m c 0 t) (iblk m c 1 t) (iblk m c 2 t) (ix2 n u)
      = pre (aX m c) (aEW m c) (aEB m c) (aDB m c) n ⟨t.val * 1024 + u.val, feat_lt t u⟩ := by
  refine (pre_at (iblk m c 0 t) (iblk m c 1 t) (iblk m c 2 t) n u).trans ?_
  unfold pre
  refine congrArg₂ (· + ·) (Finset.sum_congr rfl fun d _ => ?_) (bias_blk m c t u (feat_lt t u))
  exact congrArg₂ (· * ·) (rows_blk m c t n d) (enc_blk m c t u d (feat_lt t u))

/-- The step's mask. -/
theorem step_fire (c : Dev nD) (t : Fin cfg0.N) (n : Fin 512) (u : Fin 1024) :
    k0_pay3 (F := Ideal) (iblk m c 0 t) (iblk m c 1 t) (iblk m c 2 t) (iblk m c 4 t) (ix2 n u)
      = fire (aX m c) (aEW m c) (aEB m c) (aDB m c) (aLT m c) n ⟨t.val * 1024 + u.val, feat_lt t u⟩ := by
  refine (mask_at (iblk m c 0 t) (iblk m c 1 t) (iblk m c 2 t) (iblk m c 4 t) n u).trans ?_
  unfold fire
  exact congrArg₂ gate (step_pre m c t n u) (congrArg Ideal.exp (thr_blk m c t u (feat_lt t u)))

/-- The step adds, to the accumulator block it finds, the run of its 1024 features' decode terms. -/
theorem step_acc (c : Dev nD) (t : Fin cfg0.N) (acc : Vec Ideal S1x512x2048 .f32) (n : Fin 512) (d : Fin 2048) :
    k0_pay4 (F := Ideal) (iblk m c 0 t) (iblk m c 1 t) (iblk m c 2 t) (iblk m c 4 t) (iblk m c 3 t) acc (ix3 (0 : Fin 1) n d)
      = acc (ix3 (0 : Fin 1) n d) + run (term (aX m c) (aEW m c) (aEB m c) (aDW m c) (aDB m c) (aLT m c) n d) (t.val * 1024) 1024 := by
  have ht : t.val < 64 := lt_of_lt_of_eq t.isLt (show cfg0.N = 64 from N_0)
  refine (acc_at (iblk m c 0 t) (iblk m c 1 t) (iblk m c 2 t) (iblk m c 4 t) (iblk m c 3 t) acc n d).trans ?_
  refine congrArg (_ + ·) ?_
  rw [run_block _ (t.val * 1024) 1024 (by omega)]
  refine Finset.sum_congr rfl fun u _ => ?_
  unfold term
  exact congrArg₂ (· * ·) (congrArg₂ (· * ·) (step_pre m c t n u) (step_fire m c t n u)) (dec_blk m c t d u (feat_lt t u))

end Cert.KernelIdeal.Steps

end
-- ==== Proof.Accum.lean ====
/-
  What the two output blocks hold after each step of the grid.

  The mask block after step t is the mask of features 1024·t … 1024·t + 1023. The accumulator block belongs to core
  t / 32 and is carried from step to step: reset at the core's first step (t ≡ 0 mod 32), it holds after step t the run
  of the decode terms of features 32768·(t / 32) … 1024·(t + 1) - 1 — by induction on t, a run of a + 1024 terms being
  its first a terms plus the next 1024.
-/
import proofs.«137895_j39410619908486_2_alg».proof.Proof.CaseValues
import proofs.«137895_j39410619908486_2_alg».proof.Proof.Steps

set_option maxRecDepth 16384

noncomputable section

open scoped BigOperators

namespace Cert.KernelIdeal.Accum

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open Cert.Sae Cert.KernelIdeal.PointValues Cert.KernelIdeal.Blocks Cert.KernelIdeal.Steps Cert.KernelIdeal.CaseValues

variable (m : (ℓ : Loc nD τ sig) → Buf (Elt Ideal) ℓ)

/-- The mask block after step `t`. -/
theorem mask_val (c : Dev nD) (t : Fin cfg0.N) (n : Fin 512) (u : Fin 1024) :
    (outsAt0 m c t.val t.isLt).1 (ix2 n u)
      = fire (aX m c) (aEW m c) (aEB m c) (aDB m c) (aLT m c) n ⟨t.val * 1024 + u.val, feat_lt t u⟩ := by
  by_cases h0 : t.val % 32 = 0
  · rw [outsAt0_A m c t h0]
    dsimp only
    refine (congrFun (mask_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) (ix2 n u)).trans ?_
    exact step_fire m c t n u
  · rw [outsAt0_B m c t h0]
    dsimp only
    refine (congrFun (mask_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) (ix2 n u)).trans ?_
    exact step_fire m c t n u

/-- At a core's first step the accumulator block holds the step's own run. -/
theorem acc_reset (c : Dev nD) (t : Fin cfg0.N) (h0 : t.val % 32 = 0) (n : Fin 512) (d : Fin 2048) :
    (outsAt0 m c t.val t.isLt).2 (ix3 (0 : Fin 1) n d)
      = run (term (aX m c) (aEW m c) (aEB m c) (aDW m c) (aDB m c) (aLT m c) n d) (t.val / 32 * 32768) ((t.val % 32 + 1) * 1024) := by
  rw [outsAt0_A m c t h0]
  dsimp only
  refine (congrFun (acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) (ix3 (0 : Fin 1) n d)).trans ?_
  refine (step_acc m c t _ n d).trans ?_
  rw [zero_at, zero_add]
  exact congrArg₂ (run _) (by omega) (by omega)

/-- After step `k` the accumulator block holds the run of the core's features up to the step's last. -/
theorem acc_val (c : Dev nD) : ∀ (k : ℕ) (hk : k < cfg0.N) (n : Fin 512) (d : Fin 2048),
    (outsAt0 m c k hk).2 (ix3 (0 : Fin 1) n d) = run (term (aX m c) (aEW m c) (aEB m c) (aDW m c) (aDB m c) (aLT m c) n d) (k / 32 * 32768) ((k % 32 + 1) * 1024)
  | 0, hk, n, d => acc_reset m c ⟨0, hk⟩ rfl n d
  | k + 1, hk, n, d => by
    by_cases h0 : (k + 1) % 32 = 0
    · exact acc_reset m c ⟨k + 1, hk⟩ h0 n d
    · rw [outsAt0_B m c ⟨k + 1, hk⟩ h0]
      dsimp only
      refine (congrFun (acc_later (F := Ideal) c (grid0.coords ⟨k + 1, hk⟩) (ms0_0 ⟨k + 1, hk⟩) (hs0_0 ⟨k + 1, hk⟩) (ms0_1 ⟨k + 1, hk⟩) (hs0_1 ⟨k + 1, hk⟩) (ms0_2 ⟨k + 1, hk⟩) (hs0_2 ⟨k + 1, hk⟩) (ms0_3 ⟨k + 1, hk⟩) (hs0_3 ⟨k + 1, hk⟩) (ms0_4 ⟨k + 1, hk⟩) (hs0_4 ⟨k + 1, hk⟩) (ms0_5 ⟨k + 1, hk⟩) (hs0_5 ⟨k + 1, hk⟩) (ms0_6 ⟨k + 1, hk⟩) (hs0_6 ⟨k + 1, hk⟩) (fun h => h0 ((hcond0_0 ⟨k + 1, hk⟩).mp h)) (iblk m c 0 ⟨k + 1, hk⟩) (iblk m c 1 ⟨k + 1, hk⟩) (iblk m c 2 ⟨k + 1, hk⟩) (iblk m c 3 ⟨k + 1, hk⟩) (iblk m c 4 ⟨k + 1, hk⟩) (outsAt0 m c k (Nat.lt_of_succ_lt hk)).2) (ix3 (0 : Fin 1) n d)).trans ?_
      refine (step_acc m c ⟨k + 1, hk⟩ _ n d).trans ?_
      rw [acc_val c k (Nat.lt_of_succ_lt hk) n d]
      show run _ _ _ + run _ ((k + 1) * 1024) 1024 = _
      have a1 : (k + 1) / 32 * 32768 = k / 32 * 32768 := by omega
      have a2 : ((k + 1) % 32 + 1) * 1024 = (k % 32 + 1) * 1024 + 1024 := by omega
      have a3 : (k + 1) * 1024 = k / 32 * 32768 + (k % 32 + 1) * 1024 := by omega
      rw [a1, a2, run_add, a3]

end Cert.KernelIdeal.Accum

end
-- ==== Proof.Arrays.lean ====
/-
  The two arrays the launch leaves.

  Step t writes its mask block to columns 1024·t … 1024·t + 1023 of the mask array, so the 64 steps fill it with the
  firing mask. The accumulator block of core z is written back once, after the core's last step 32·z + 31, when it
  holds the run of all 32768 features of that core: entry (z, n, d) of the per-core array is the sum of the decode
  terms of features 32768·z … 32768·z + 32767.
-/
import proofs.«137895_j39410619908486_2_alg».proof.Proof.Accum

set_option maxRecDepth 16384

noncomputable section

open scoped BigOperators

namespace Cert.KernelIdeal.Arrays

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open Cert.Sae Cert.KernelIdeal.Blocks Cert.KernelIdeal.Steps Cert.KernelIdeal.Accum

variable (m : (ℓ : Loc nD τ sig) → Buf (Elt Ideal) ℓ)

/-- The firing mask. -/
abbrev maskOut (c : Dev nD) : S512x65536.Idx → EReal := maskArr (aX m c) (aEW m c) (aEB m c) (aDB m c) (aLT m c)

/-- Core `z`'s share of the decode at (n, d): the run of its 32768 features' terms. -/
def partAt (c : Dev nD) (z : ℕ) (n : Fin 512) (d : Fin 2048) : EReal :=
  run (term (aX m c) (aEW m c) (aEB m c) (aDW m c) (aDB m c) (aLT m c) n d) (z * 32768) 32768

theorem partAt_congr (c : Dev nD) {z z' : ℕ} {n n' : Fin 512} {d d' : Fin 2048} (hz : z = z') (hn : n = n') (hd : d = d') :
    partAt m c z n d = partAt m c z' n' d' := by subst hz hn hd; rfl

/-- The per-core decode array. -/
def partOut (c : Dev nD) : S2x512x2048.Idx → EReal :=
  fun j => partAt m c (j 0).val ⟨(j 1).val, (j 1).isLt⟩ ⟨(j 2).val, (j 2).isLt⟩

/-! ## What each step writes back -/

/-- Step `t` writes back block `t` of the firing mask. -/
theorem mask_flushed (c : Dev nD) (t : Fin cfg0.N) :
    (dats m 0 c).flushed 5 t = ((cfg0.win 5).blk t).view.read (Elt Ideal) (maskOut m c) := by
  show (cfg0.win 5).cut (grid0.coords t) ((dats m 0 c).after 5 t) = _
  rw [after0_5]
  obtain ⟨-, -, -, -, -, -, -, -, -, -, e0, e1, -⟩ := idx_facts t
  funext y
  obtain ⟨n, u, rfl⟩ : ∃ (n : Fin 512) (u : Fin 1024), y = ix2 n u := ⟨y 0, y 1, eq_ix2 (n0 := 512) (n1 := 1024) y⟩
  show (outsAt0 m c t.val t.isLt).1 (ix2 n u) = maskOut m c (((cfg0.win 5).blk t).view.emb (ix2 n u))
  rw [mask_val m c t n u]
  have h0 : (((cfg0.win 5).blk t).view.emb (ix2 n u)) 0 = n :=
    Fin.ext (by show win0_5.index t (0 : Fin 2) * 512 + 1 * n.val = n.val; rw [e0]; omega)
  have h1 : (((cfg0.win 5).blk t).view.emb (ix2 n u)) 1 = (⟨t.val * 1024 + u.val, feat_lt t u⟩ : Fin 65536) :=
    Fin.ext (by show win0_5.index t (1 : Fin 2) * 1024 + 1 * u.val = t.val * 1024 + u.val; rw [e1]; omega)
  exact (congrArg₂ (fire (aX m c) (aEW m c) (aEB m c) (aDB m c) (aLT m c)) h0 h1).symm

set_option maxRecDepth 131072 in
/-- A core's last step writes back the core's share of the decode. -/
theorem part_flushed (c : Dev nD) (t : Fin cfg0.N) (hf : (cfg0.win 6).flush t = true) :
    (dats m 0 c).flushed 6 t = ((cfg0.win 6).blk t).view.read (Elt Ideal) (partOut m c) := by
  have h31 : t.val % 32 = 31 := (flush0_6 t).mp hf
  show (cfg0.win 6).cut (grid0.coords t) ((dats m 0 c).after 6 t) = _
  rw [after0_6]
  obtain ⟨-, -, -, -, -, -, -, -, -, -, -, -, e0, e1, e2⟩ := idx_facts t
  funext y
  obtain ⟨z, n, d, rfl⟩ : ∃ (z : Fin 1) (n : Fin 512) (d : Fin 2048), y = ix3 z n d :=
    ⟨y 0, y 1, y 2, eq_ix3 (n0 := 1) (n1 := 512) (n2 := 2048) y⟩
  obtain rfl : z = 0 := Subsingleton.elim _ _
  show (outsAt0 m c t.val t.isLt).2 (ix3 (0 : Fin 1) n d) = partOut m c (((cfg0.win 6).blk t).view.emb (ix3 (0 : Fin 1) n d))
  rw [acc_val m c t.val t.isLt n d]
  unfold partOut
  refine Eq.trans ?_ (partAt_congr m c
    (show t.val / 32 = ((((cfg0.win 6).blk t).view.emb (ix3 (0 : Fin 1) n d)) 0).val from by
      show t.val / 32 = win0_6.index t (0 : Fin 3) * 1 + 1 * 0; rw [e0]; omega)
    (Fin.ext (show n.val = ((((cfg0.win 6).blk t).view.emb (ix3 (0 : Fin 1) n d)) 1).val from by
      show n.val = win0_6.index t (1 : Fin 3) * 512 + 1 * n.val; rw [e1]; omega))
    (Fin.ext (show d.val = ((((cfg0.win 6).blk t).view.emb (ix3 (0 : Fin 1) n d)) 2).val from by
      show d.val = win0_6.index t (2 : Fin 3) * 2048 + 1 * d.val; rw [e2]; omega)))
  unfold partAt
  exact congrArg (run _ _) (by omega)

/-! ## The blocks fill the arrays -/

theorem mask_mem (t : Fin cfg0.N) (i : S512x65536.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v5_0).slice (win0_5.rect t)).set ↔ _
  rw [View.set_slice_whole, Rect.mem_set_unit]
  exact Iff.rfl

theorem part_mem (t : Fin cfg0.N) (i : S2x512x2048.Idx) :
    i ∈ ((cfg0.win 6).blk t).view.set ↔ ∀ a : Fin 3, win0_6.index t a * S1x512x2048.size a ≤ (i a).val
      ∧ (i a).val < win0_6.index t a * S1x512x2048.size a + S1x512x2048.size a := by
  show i ∈ ((View.whole main_v5_1).slice (win0_6.rect t)).set ↔ _
  rw [View.set_slice_whole, Rect.mem_set_unit]
  exact Iff.rfl

/-- Column `j` of the mask array is in the block of step `j / 1024`. -/
theorem mask_cover (i : S512x65536.Idx) : ∃ t : Fin cfg0.N, (cfg0.win 5).flush t = true ∧ i ∈ ((cfg0.win 5).blk t).view.set := by
  have h0 : (i 0).val < 512 := (i 0).isLt
  have h1 : (i 1).val < 65536 := (i 1).isLt
  have hN : cfg0.N = 64 := N_0
  refine ⟨⟨(i 1).val / 1024, by rw [hN]; omega⟩, flush0_5 _, ?_⟩
  obtain ⟨-, -, -, -, -, -, -, -, -, -, e0, e1, -⟩ := idx_facts ⟨(i 1).val / 1024, by rw [hN]; omega⟩
  rw [mask_mem]
  intro a
  match a with
  | ⟨0, _⟩ =>
    show win0_5.index _ (0 : Fin 2) * 512 ≤ (i 0).val ∧ (i 0).val < win0_5.index _ (0 : Fin 2) * 512 + 512
    rw [e0]; omega
  | ⟨1, _⟩ =>
    show win0_5.index _ (1 : Fin 2) * 1024 ≤ (i 1).val ∧ (i 1).val < win0_5.index _ (1 : Fin 2) * 1024 + 1024
    rw [e1]; show (i 1).val / 1024 * 1024 ≤ (i 1).val ∧ (i 1).val < (i 1).val / 1024 * 1024 + 1024; omega

/-- Core `z`'s slab of the per-core array is the block written back after step `32·z + 31`. -/
theorem part_cover (i : S2x512x2048.Idx) : ∃ t : Fin cfg0.N, (cfg0.win 6).flush t = true ∧ i ∈ ((cfg0.win 6).blk t).view.set := by
  have h0 : (i 0).val < 2 := (i 0).isLt
  have h1 : (i 1).val < 512 := (i 1).isLt
  have h2 : (i 2).val < 2048 := (i 2).isLt
  have hN : cfg0.N = 64 := N_0
  refine ⟨⟨(i 0).val * 32 + 31, by rw [hN]; omega⟩, (flush0_6 _).mpr (by show ((i 0).val * 32 + 31) % 32 = 31; omega), ?_⟩
  obtain ⟨-, -, -, -, -, -, -, -, -, -, -, -, e0, e1, e2⟩ := idx_facts ⟨(i 0).val * 32 + 31, by rw [hN]; omega⟩
  rw [part_mem]
  intro a
  match a with
  | ⟨0, _⟩ =>
    show win0_6.index _ (0 : Fin 3) * 1 ≤ (i 0).val ∧ (i 0).val < win0_6.index _ (0 : Fin 3) * 1 + 1
    rw [e0]; show ((i 0).val * 32 + 31) / 32 * 1 ≤ (i 0).val ∧ (i 0).val < ((i 0).val * 32 + 31) / 32 * 1 + 1; omega
  | ⟨1, _⟩ =>
    show win0_6.index _ (1 : Fin 3) * 512 ≤ (i 1).val ∧ (i 1).val < win0_6.index _ (1 : Fin 3) * 512 + 512
    rw [e1]; omega
  | ⟨2, _⟩ =>
    show win0_6.index _ (2 : Fin 3) * 2048 ≤ (i 2).val ∧ (i 2).val < win0_6.index _ (2 : Fin 3) * 2048 + 2048
    rw [e2]; omega

/-! ## The arrays after the launch -/

theorem mask_final (c : Dev nD) : (dats m 0 c).arrAt 5 cfg0.N = maskOut m c :=
  (dats m 0 c).arrAt_eq_of_cover 5 (maskOut m c) (fun t _ => mask_flushed m c t) mask_cover

theorem part_final (c : Dev nD) : (dats m 0 c).arrAt 6 cfg0.N = partOut m c :=
  (dats m 0 c).arrAt_eq_of_cover 6 (partOut m c) (fun t hf => part_flushed m c t hf) part_cover

end Cert.KernelIdeal.Arrays

end
-- ==== Proof.Loss.lean ====
/-
  The scalar loss both programs compute, on the host, from the decode R (512 × 2048, before the decoder bias), the
  batch x and the decoder bias b: with r(n, d) = (R(n, d) + b(d)) / 64 - x(n, d),
      loss = ( Σ_d ( Σ_n r(n, d)² ) / 512 ) / 64 .
  Both programs spell it with the same host operations in the same order; it is kept as one function of R, x and b
  and never opened: the two programs' losses are equal because their decodes are.
-/
import proofs.«137895_j39410619908486_2_alg».proof.Proof.Gen.ReferenceIdeal
import Idealize.ShloMosaic.PureOps.Ideal
import Idealize.ShloMosaic.Lib.ValueIdx

set_option maxRecDepth 16384

noncomputable section

open scoped BigOperators

namespace Cert.ReferenceIdeal.Loss

open Idealize.ShloMosaic Idealize.ShloMosaic.TcCoe Idealize.ShloMosaic.ValueIdx
open Idealize.SL.Sem
open Cert.ReferenceIdeal Cert.ReferenceIdeal.Gen

/-- The scaled reconstruction error: (R + b) / 64 - x, entry by entry. -/
def resid (R x : FVec Ideal S512x2048 .f32) (b : FVec Ideal S2048 .f32) : FVec Ideal S512x2048 .f32 :=
  subf (Host.divf (F := Ideal)
      (addf R (broadcastInDim S512x2048 ![0, 1] bcast_S1x2048_S512x2048_0_1 (broadcastInDim S1x2048 ![1] bcast_S2048_S1x2048_1 b)))
      (broadcastInDim S512x2048 ![] bcast_S_S512x2048 (constant (F := Ideal) S_ .f32 0x42800000#32))) x

/-- The loss: the errors squared, summed over the batch, divided by 512, summed over the entries, divided by 64. -/
def loss (R x : FVec Ideal S512x2048 .f32) (b : FVec Ideal S2048 .f32) : FVec Ideal S_ .f32 :=
  Host.divf (F := Ideal)
    (Host.reduceAdd (F := Ideal)
      (Host.divf (F := Ideal)
        (Host.reduceAdd (F := Ideal) (mulf (resid R x b) (resid R x b)) (constant (F := Ideal) S_ .f32 0x00000000#32)
          reducesTo_S512x2048_S2048_d0 h_S_)
        (broadcastInDim S2048 ![] bcast_S_S2048 (constant (F := Ideal) S_ .f32 0x44000000#32)))
      (constant (F := Ideal) S_ .f32 0x00000000#32) reducesTo_S2048_S_d0 h_S_)
    (constant (F := Ideal) S_ .f32 0x42800000#32)

end Cert.ReferenceIdeal.Loss

end
-- ==== Proof.Tail.lean ====
/-
  After the launch the host adds the two cores' shares of the decode and computes the loss from the sum.

  Entry (n, d) of the sum is the run of the decode terms of features 0 … 32767 plus the run of features
  32768 … 65535: the run of all 65536 features, that is the decode Σ_τ (h(n, τ) · s(n, τ)) · W_dec(d, τ).
  The loss is then the shared function of that decode, the batch and the decoder bias.
-/
import proofs.«137895_j39410619908486_2_alg».proof.Proof.Arrays
import proofs.«137895_j39410619908486_2_alg».proof.Proof.Loss
import Idealize.ShloMosaic.Lib.StableHlo.Run

set_option maxRecDepth 16384

noncomputable section

open scoped BigOperators

namespace Cert.KernelIdeal.Tail

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen
open Idealize.ShloMosaic.StableHlo
open Cert.Sae Cert.KernelIdeal.Blocks Cert.KernelIdeal.Arrays

variable (m : (ℓ : Loc nD τ sig) → Buf (Elt Ideal) ℓ)

/-- The decode of the specification on core `c`'s argument arrays. -/
abbrev decodeOut (c : Dev nD) : S512x2048.Idx → EReal := decodeArr (aX m c) (aEW m c) (aEB m c) (aDW m c) (aDB m c) (aLT m c)

/-- The two cores' shares, each taken as a slab of the per-core array and viewed as a matrix, add up to the decode. -/
theorem shares_sum (c : Dev nD) :
    addf (F := Ideal) (φ := .f32)
        (shapeCast S512x2048 (extractStridedSlice S1x512x2048 ![0, 0, 0] (partOut m c) slices_S2x512x2048_S1x512x2048_0_0_0)
          shapeCasts_S1x512x2048_S512x2048)
        (shapeCast S512x2048 (extractStridedSlice S1x512x2048 ![1, 0, 0] (partOut m c) slices_S2x512x2048_S1x512x2048_1_0_0)
          shapeCasts_S1x512x2048_S512x2048)
      = decodeOut m c := by
  funext j
  obtain ⟨n, d, rfl⟩ : ∃ (n : Fin 512) (d : Fin 2048), j = ix2 n d := ⟨j 0, j 1, eq_ix2 j⟩
  rw [addf_apply, shapeCast_1ab_ab_apply, shapeCast_1ab_ab_apply]
  rw [extractStridedSlice_apply ![0, 0, 0] (partOut m c) slices_S2x512x2048_S1x512x2048_0_0_0 (ix3 (0 : Fin 1) n d)
      (ix3 (0 : Fin 2) n d) (fun a => by match a with | ⟨0, _⟩ => rfl | ⟨1, _⟩ => exact (Nat.zero_add _).symm | ⟨2, _⟩ => exact (Nat.zero_add _).symm),
    extractStridedSlice_apply ![1, 0, 0] (partOut m c) slices_S2x512x2048_S1x512x2048_1_0_0 (ix3 (0 : Fin 1) n d)
      (ix3 (1 : Fin 2) n d) (fun a => by match a with | ⟨0, _⟩ => rfl | ⟨1, _⟩ => exact (Nat.zero_add _).symm | ⟨2, _⟩ => exact (Nat.zero_add _).symm)]
  show partAt m c 0 n d + partAt m c 1 n d = ∑ f : Fin 65536, term (aX m c) (aEW m c) (aEB m c) (aDW m c) (aDB m c) (aLT m c) n d f
  unfold partAt
  exact (run_add (term (aX m c) (aEW m c) (aEB m c) (aDW m c) (aDB m c) (aLT m c) n d) 0 32768 32768).symm.trans (run_full (term (aX m c) (aEW m c) (aEB m c) (aDW m c) (aDB m c) (aLT m c) n d))

/-- The program's second result: the loss of the decode. -/
theorem loss_val (c : Dev nD) :
    @Eq (S_.Idx → EReal) (Pipeline.afterTail₀ cfgs (dats m) 0 (V0 m) [hostOps1] c main_v22)
      (Cert.ReferenceIdeal.Loss.loss (decodeOut m c) (aX m c) (aDB m c)) := by
  unfold Pipeline.afterTail₀
  show StableHlo.after hostOps1 _ (Proc.devRef .tc main_v22) = _
  after_results
  have hP : Pipeline.withArrays (cfgs 0).spec c (V0 m c) (fun w => (dats m 0 c).arrAt w (cfgs 0).N) (Proc.devRef .tc main_v5_1)
      = partOut m c := (Pipeline.withArrays_arr spec0 launch0.win.arr_inj c _ _ 6).trans (part_final m c)
  have h4 : Pipeline.withArrays (cfgs 0).spec c (V0 m c) (fun w => (dats m 0 c).arrAt w (cfgs 0).N) (Proc.devRef .tc main_arg4)
      = aDB m c :=
    (Pipeline.withArrays_of_ne _ c (V0 m c) _ main_arg4 (by exact (by decide : ∀ w, Pipeline.arrRef spec0 w ≠ main_arg4))).trans
      (V_main_arg4 m c)
  have h0 : Pipeline.withArrays (cfgs 0).spec c (V0 m c) (fun w => (dats m 0 c).arrAt w (cfgs 0).N) (Proc.devRef .tc main_arg0)
      = aX m c :=
    (Pipeline.withArrays_of_ne _ c (V0 m c) _ main_arg0 (by exact (by decide : ∀ w, Pipeline.arrRef spec0 w ≠ main_arg0))).trans
      (V_main_arg0 m c)
  rw [hP, h4, h0]
  refine Eq.trans ?_ (congrArg (fun R => Cert.ReferenceIdeal.Loss.loss R (aX m c) (aDB m c)) (shares_sum m c))
  rfl

/-- The idealized kernel program's run: every weakly fair execution terminates with the first result at the firing mask,
    the second at the loss of the decode, and the six arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v5_0) = maskOut m c
      ∧ r.2.mem ((c.tc : Thread nD τ).loc main_v22) = Cert.ReferenceIdeal.Loss.loss (decodeOut m c) (aX m c) (aDB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 5).trans (mask_final m c),
      ((h c).2 main_v22 (Pipeline.mem_restRefs_of main_v22 (by decide) (by decide))).trans (loss_val m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Tail

end
-- ==== Proof.RefValue.lean ====
/-
  The reference program's stages are the forward pass of the specification, entry by entry: its centred batch, its
  pre-activations (a product with the transposed encoder weights: Σ_d xc(n, d) · W_enc(τ, d)), its mask, its decode
  (a product with the transposed decoder weights: Σ_τ a(n, τ) · W_dec(d, τ)), and its loss, the shared function of
  the decode.
-/
import proofs.«137895_j39410619908486_2_alg».proof.Proof.Gen.ReferenceIdeal.Read
import proofs.«137895_j39410619908486_2_alg».proof.Proof.Spec
import proofs.«137895_j39410619908486_2_alg».proof.Proof.Loss

set_option maxRecDepth 16384

noncomputable section

open scoped BigOperators

namespace Cert.ReferenceIdeal.RefValue

open Idealize.ShloMosaic Idealize.ShloMosaic.TcCoe Idealize.ShloMosaic.ValueIdx
open Idealize.SL.Sem
open Cert.ReferenceIdeal Cert.ReferenceIdeal.Gen
open Cert.ReferenceIdeal.Read Cert.Sae

variable (x0 : FVec Ideal S512x2048 .f32) (x1 : FVec Ideal S65536x2048 .f32) (x2 : FVec Ideal S65536 .f32) (x3 : FVec Ideal S2048x65536 .f32) (x4 : FVec Ideal S2048 .f32) (x5 : FVec Ideal S65536 .f32)

/-- The centred batch. -/
theorem centred_at (n : Fin 512) (d : Fin 2048) :
    val_main_v2 (F := Ideal) x0 x4 (ix2 n d) = x0 (ix2 n d) - x4 (ix1 d) := by
  rw [val_main_v2_apply, val_main_v1_apply, val_main_v0_apply]
  show x0 (ix2 n d) - x4 _ = _
  refine congrArg (fun e => x0 (ix2 n d) - x4 e) ?_
  exact funext fun a => Fin.ext (by match a with | ⟨0, _⟩ => rfl)

/-- The pre-activations. -/
theorem pre_at (n : Fin 512) (f : Fin 65536) :
    val_main_v7 (F := Ideal) x0 x1 x2 x4 (ix2 n f) = pre x0 x1 x2 x4 n f := by
  rw [val_main_v7_apply, val_main_v4_apply, val_main_v6_apply, val_main_v5_apply]
  unfold pre
  show (∑ k : Fin 2048, _) + x2 _ = _
  refine congrArg₂ (· + ·) (Finset.sum_congr rfl fun k _ => ?_) (congrArg x2 ?_)
  · have el : lidx_main_v4 (ix2 n f) k = ix2 n k :=
      funext fun a => Fin.ext (by match a with | ⟨0, _⟩ => rfl | ⟨1, _⟩ => rfl)
    have er : idx_main_v3 (ridx_main_v4 (ix2 n f) k) = ix2 f k :=
      funext fun a => Fin.ext (by match a with | ⟨0, _⟩ => rfl | ⟨1, _⟩ => rfl)
    rw [el, centred_at, val_main_v3_apply, er]
  · exact funext fun a => Fin.ext (by match a with | ⟨0, _⟩ => rfl)

/-- The mask. -/
theorem fire_at (n : Fin 512) (f : Fin 65536) :
    val_main_v12 (F := Ideal) x0 x1 x2 x4 x5 (ix2 n f) = fire x0 x1 x2 x4 x5 n f := by
  rw [val_main_v12_apply, val_main_v11_apply, pre_at, val_main_v10_apply, val_main_v9_apply, val_main_v8_apply]
  unfold fire gate
  show FloatOps.uitofp (F := Ideal) .f32 (FloatOps.cmpf (F := Ideal) (φ := .f32) .ogt _ (Ideal.exp (x5 _))) = _
  refine congrArg (fun e => FloatOps.uitofp (F := Ideal) .f32 (FloatOps.cmpf (F := Ideal) (φ := .f32) .ogt (pre x0 x1 x2 x4 n f) (Ideal.exp (x5 e)))) ?_
  exact funext fun a => Fin.ext (by match a with | ⟨0, _⟩ => rfl)

theorem mask_eq : val_main_v12 (F := Ideal) x0 x1 x2 x4 x5 = maskArr x0 x1 x2 x4 x5 := by
  funext j
  obtain ⟨n, f, rfl⟩ : ∃ (n : Fin 512) (f : Fin 65536), j = ix2 n f := ⟨j 0, j 1, eq_ix2 j⟩
  exact fire_at x0 x1 x2 x4 x5 n f

/-- The decode. -/
theorem decode_at (n : Fin 512) (d : Fin 2048) :
    val_main_v15 (F := Ideal) x0 x1 x2 x3 x4 x5 (ix2 n d) = ∑ f : Fin 65536, term x0 x1 x2 x3 x4 x5 n d f := by
  rw [val_main_v15_apply]
  refine Finset.sum_congr rfl fun k _ => ?_
  have el : lidx_main_v15 (ix2 n d) k = ix2 n k :=
    funext fun a => Fin.ext (by match a with | ⟨0, _⟩ => rfl | ⟨1, _⟩ => rfl)
  have er : idx_main_v14 (ridx_main_v15 (ix2 n d) k) = ix2 d k :=
    funext fun a => Fin.ext (by match a with | ⟨0, _⟩ => rfl | ⟨1, _⟩ => rfl)
  rw [el, val_main_v13_apply, pre_at, fire_at, val_main_v14_apply, er]
  rfl

theorem decode_eq : val_main_v15 (F := Ideal) x0 x1 x2 x3 x4 x5 = decodeArr x0 x1 x2 x3 x4 x5 := by
  funext j
  obtain ⟨n, d, rfl⟩ : ∃ (n : Fin 512) (d : Fin 2048), j = ix2 n d := ⟨j 0, j 1, eq_ix2 j⟩
  exact decode_at x0 x1 x2 x3 x4 x5 n d

/-- The reference's loss is the shared function of its decode. -/
theorem loss_eq : val_main_v27 (F := Ideal) x0 x1 x2 x3 x4 x5 = Loss.loss (decodeArr x0 x1 x2 x3 x4 x5) x0 x4 := by
  rw [← decode_eq]
  rfl

end Cert.ReferenceIdeal.RefValue

end
-- ==== Proof.lean ====
/-
  A sparse autoencoder's forward pass: a Pallas kernel against its jnp reference, over the extended reals.

  Both programs return the firing mask s(n, τ) = [h(n, τ) > exp(logthr(τ))] of the pre-activations
  h = (x - b_dec) · W_encᵀ + b_enc, and a scalar loss computed from the decode R = (h · s) · W_decᵀ, the batch x and
  the decoder bias. The kernel walks the 65536 features in 64 steps of 1024, the first 32 on one core and the last 32
  on the other: each step writes its 1024 columns of the mask and adds its 1024 features' terms to its core's
  accumulator block; the host then adds the two cores' blocks. The reference computes R as one product. The two
  agree because a sum over all features is the sum, run after run, of the runs' sums — addition of extended reals is
  commutative and associative, so nothing about finiteness is used — and because the loss is the same function of
  R on both sides. The idealization rewrote nothing, so it is preserved trivially.
-/
import proofs.«137895_j39410619908486_2_alg».proof.Defs
import proofs.«137895_j39410619908486_2_alg».proof.Proof.Gen.Kernel
import proofs.«137895_j39410619908486_2_alg».proof.Proof.Gen.Kernel.Skeleton
import proofs.«137895_j39410619908486_2_alg».proof.Proof.Gen.Kernel.Launch
import proofs.«137895_j39410619908486_2_alg».proof.Proof.Gen.Kernel.Points
import proofs.«137895_j39410619908486_2_alg».proof.Proof.Gen.Kernel.Frame
import proofs.«137895_j39410619908486_2_alg».proof.Proof.Gen.KernelIdeal
import proofs.«137895_j39410619908486_2_alg».proof.Proof.Gen.KernelIdeal.Skeleton
import proofs.«137895_j39410619908486_2_alg».proof.Proof.Gen.KernelIdeal.Launch
import proofs.«137895_j39410619908486_2_alg».proof.Proof.Gen.KernelIdeal.Points
import proofs.«137895_j39410619908486_2_alg».proof.Proof.Gen.KernelIdeal.Frame
import proofs.«137895_j39410619908486_2_alg».proof.Proof.Gen.ReferenceIdeal
import proofs.«137895_j39410619908486_2_alg».proof.Proof.Gen.Pre_finite_inputs
import proofs.«137895_j39410619908486_2_alg».proof.Proof.Gen.ReferenceIdeal.Run
import proofs.«137895_j39410619908486_2_alg».proof.Proof.Gen.ReferenceIdeal.Read
import proofs.«137895_j39410619908486_2_alg».proof.Proof.Tail
import proofs.«137895_j39410619908486_2_alg».proof.Proof.RefValue
import Idealize.ShloMosaic.Adequacy
import Idealize.ShloMosaic.Init

noncomputable section

namespace Cert.Proof

open Idealize.ShloMosaic Idealize.SL.Sem Cert.Kernel

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the firing mask and with the loss of the decode of
    those arguments. -/
theorem algebraic : Cert.algebraic_KernelIdeal_ReferenceIdeal := by
  intro m ρ m' ρ' _ hagree
  refine ⟨fun c => Cert.KernelIdeal.Arrays.maskOut m c,
    fun c => Cert.ReferenceIdeal.Loss.loss (Cert.KernelIdeal.Tail.decodeOut m c) (Cert.KernelIdeal.Blocks.aX m c) (Cert.KernelIdeal.Blocks.aDB m c),
    Cert.KernelIdeal.Tail.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v12_eq, Cert.ReferenceIdeal.RefValue.mask_eq,
      (hagree c).1, (hagree c).2.1, (hagree c).2.2.1, (hagree c).2.2.2.2.1, (hagree c).2.2.2.2.2]
  · rw [(h c).2.1, Cert.ReferenceIdeal.Read.val_main_v27_eq, Cert.ReferenceIdeal.RefValue.loss_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
